-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S4194304x8x2 : Shape := ⟨3, ![4194304, 8, 2]⟩
abbrev S33554432 : Shape := ⟨1, ![33554432]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel
  bcast_S_S4194304x8x2 : S_.BroadcastsInDim S4194304x8x2 (![] : Fin 0 → Fin S4194304x8x2.rank)
  reducesTo_S4194304x8x2_S_d0_1_2 : S4194304x8x2.ReducesTo [0, 1, 2] S_
  bcast_S_S33554432 : S_.BroadcastsInDim S33554432 (![] : Fin 0 → Fin S33554432.rank)
  reducesTo_S33554432_S_d0 : S33554432.ReducesTo [0] S_
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S4194304 .f32) (main_arg1 : FVec F S4194304x8x2 .f32) (main_arg2 : FVec F S33554432 .f32) (main_arg3 : FVec F S_ .f32) : IVec S_ 1 :=
  let main_v0 : FVec F S4194304 .f32 := Host.absf main_arg0
  let main_cst : FVec F S_ .f32 := constant S_ .f32 0x7F800000#32
  let main_v1 : FVec F S4194304 .f32 := broadcastInDim S4194304 ![] bcast_S_S4194304 main_cst
  let main_v2 : IVec S4194304 1 := cmpf .olt main_v0 main_v1
  let main_c : IVec S_ 1 := constantI S_ 1 1#1
  let main_v3 : IVec S_ 1 := (fun x v => Host.reduce IntOp.andi x v reducesTo_S4194304_S_d0 h_S_) main_v2 main_c
  let main_v4 : FVec F S4194304x8x2 .f32 := Host.absf main_arg1
  let main_cst_0 : FVec F S_ .f32 := constant S_ .f32 0x7F800000#32
  let main_v5 : FVec F S4194304x8x2 .f32 := broadcastInDim S4194304x8x2 ![] bcast_S_S4194304x8x2 main_cst_0
  let main_v6 : IVec S4194304x8x2 1 := cmpf .olt main_v4 main_v5
  let main_c_1 : IVec S_ 1 := constantI S_ 1 1#1
  let main_v7 : IVec S_ 1 := (fun x v => Host.reduce IntOp.andi x v reducesTo_S4194304x8x2_S_d0_1_2 h_S_) main_v6 main_c_1
  let main_v8 : IVec S_ 1 := andi main_v3 main_v7
  let main_v9 : FVec F S33554432 .f32 := Host.absf main_arg2
  let main_cst_2 : FVec F S_ .f32 := constant S_ .f32 0x7F800000#32
  let main_v10 : FVec F S33554432 .f32 := broadcastInDim S33554432 ![] bcast_S_S33554432 main_cst_2
  let main_v11 : IVec S33554432 1 := cmpf .olt main_v9 main_v10
  let main_c_3 : IVec S_ 1 := constantI S_ 1 1#1
  let main_v12 : IVec S_ 1 := (fun x v => Host.reduce IntOp.andi x v reducesTo_S33554432_S_d0 h_S_) main_v11 main_c_3
  let main_v13 : IVec S_ 1 := andi main_v8 main_v12
  let main_v14 : FVec F S_ .f32 := Host.absf main_arg3
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S4194304 : Shape := ⟨1, ![4194304]⟩
abbrev S4194304x8x2 : Shape := ⟨3, ![4194304, 8, 2]⟩
abbrev S33554432 : Shape := ⟨1, ![33554432]⟩
abbrev S_ : Shape := ⟨0, ![]⟩
abbrev S4194304x8 : Shape := ⟨2, ![4194304, 8]⟩
abbrev S4194304x8x1 : Shape := ⟨3, ![4194304, 8, 1]⟩
abbrev S8192 : Shape := ⟨1, ![8192]⟩
abbrev S8192x8 : Shape := ⟨2, ![8192, 8]⟩
abbrev S8192x1 : Shape := ⟨2, ![8192, 1]⟩
abbrev S1 : Shape := ⟨1, ![1]⟩
abbrev S4194303 : Shape := ⟨1, ![4194303]⟩
abbrev S524288x8 : Shape := ⟨2, ![524288, 8]⟩

abbrev nBuf : Space → Nat
  | .hbm => 19
  | .vmem => 12
  | .smem => 0
  | _ => 0

abbrev bufTy : (tb : Table) → Fin (tcTables nBuf tb) → BufTy
  | .hbm, ⟨0, _⟩ => ⟨S4194304, .f32⟩
  | .hbm, ⟨1, _⟩ => ⟨S4194304x8x2, .f32⟩
  | .hbm, ⟨2, _⟩ => ⟨S33554432, .f32⟩
  | .hbm, ⟨3, _⟩ => ⟨S_, .f32⟩
  | .hbm, ⟨4, _⟩ => ⟨S4194304x8, .f32⟩
  | .hbm, ⟨5, _⟩ => ⟨S4194304x8x1, .f32⟩
  | .hbm, ⟨6, _⟩ => ⟨S4194304x8, .f32⟩
  | .hbm, ⟨7, _⟩ => ⟨S4194304x8x1, .f32⟩
  | .hbm, ⟨8, _⟩ => ⟨S4194304x8, .f32⟩
  | .hbm, ⟨9, _⟩ => ⟨S4194304, .f32⟩
  | .hbm, ⟨10, _⟩ => ⟨S4194304x8, .f32⟩
  | .hbm, ⟨11, _⟩ => ⟨S1, .f32⟩
  | .hbm, ⟨12, _⟩ => ⟨S4194303, .f32⟩
  | .hbm, ⟨13, _⟩ => ⟨S4194304, .f32⟩
  | .hbm, ⟨14, _⟩ => ⟨S4194304, .f32⟩
  | .hbm, ⟨15, _⟩ => ⟨S4194304, .f32⟩
  | .hbm, ⟨16, _⟩ => ⟨S524288x8, .f32⟩
  | .hbm, ⟨17, _⟩ => ⟨S_, .f32⟩
  | .hbm, ⟨18, _⟩ => ⟨S_, .f32⟩
  | .local _ .vmem, ⟨0, _⟩ => ⟨S8192, .f32⟩
  | .local _ .vmem, ⟨1, _⟩ => ⟨S8192, .f32⟩
  | .local _ .vmem, ⟨2, _⟩ => ⟨S8192x8, .f32⟩
  | .local _ .vmem, ⟨3, _⟩ => ⟨S8192x8, .f32⟩
  | .local _ .vmem, ⟨4, _⟩ => ⟨S8192x8, .f32⟩
  | .local _ .vmem, ⟨5, _⟩ => ⟨S8192x8, .f32⟩
  | .local _ .vmem, ⟨6, _⟩ => ⟨S8192x8, .f32⟩
  | .local _ .vmem, ⟨7, _⟩ => ⟨S8192x8, .f32⟩
  | .local _ .vmem, ⟨8, _⟩ => ⟨S8192, .f32⟩
  | .local _ .vmem, ⟨9, _⟩ => ⟨S8192, .f32⟩
  | .local _ .vmem, ⟨10, _⟩ => ⟨S8192x8, .f32⟩
  | .local _ .vmem, ⟨11, _⟩ => ⟨S8192x8, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![512], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S33554432_S4194304x8 : S33554432.ShapeCasts S4194304x8
  slices_S4194304x8x2_S4194304x8x1_0_0_0 : S4194304x8x2.Slices ![0, 0, 0] S4194304x8x1
  shapeCasts_S4194304x8x1_S4194304x8 : S4194304x8x1.ShapeCasts S4194304x8
  slices_S4194304x8x2_S4194304x8x1_0_0_1 : S4194304x8x2.Slices ![0, 0, 1] S4194304x8x1
  inb_S8192_S8192_0 : ∀ a, (![0] : Fin 1 → Nat) a + S8192.size a ≤ S8192.size a
  h_S8192 : 0 < S8192.numel
  inb_S8192x8_S8192x8_0_0 : ∀ a, (![0, 0] : Fin 2 → Nat) a + S8192x8.size a ≤ S8192x8.size a
  h_S8192x8 : 0 < S8192x8.numel
  shapeCasts_S8192x8_S8192x8 : S8192x8.ShapeCasts S8192x8
  shapeCasts_S8192_S8192x1 : S8192.ShapeCasts S8192x1
  broadcasts_S8192x1_S8192x8 : S8192x1.Broadcasts S8192x8
  reduces_S8192x8_S8192 : S8192x8.Reduces [1] S8192
  bcast_S_S1 : S_.BroadcastsInDim S1 (![] : Fin 0 → Fin S1.rank)
  slices_S4194304_S4194303_0 : S4194304.Slices ![0] S4194303
  concatenates_S1_S4194303_S4194304_d0 : Shape.Concatenates [S1, S4194303] S4194304 0
  slices_S4194304x8_S524288x8_3670016_0 : S4194304x8.Slices ![3670016, 0] S524288x8
  reducesTo_S524288x8_S_d0_1 : S524288x8.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S4194304.size a
  hwx0_0 : ∀ i : grid0.Coords, EltTy.bits .f32 = 32 ∨ (Rect.block (s := S4194304) S8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x8.size a ≤ S4194304x8.size a
  hwx0_1 : ∀ i : grid0.Coords, EltTy.bits .f32 = 32 ∨ (Rect.block (s := S4194304x8) S8192x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x8.size a ≤ S4194304x8.size a
  hwx0_2 : ∀ i : grid0.Coords, EltTy.bits .f32 = 32 ∨ (Rect.block (s := S4194304x8) S8192x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x8.size a ≤ S4194304x8.size a
  hwx0_3 : ∀ i : grid0.Coords, EltTy.bits .f32 = 32 ∨ (Rect.block (s := S4194304x8) S8192x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192.size a ≤ S4194304.size a
  hwx0_4 : ∀ i : grid0.Coords, EltTy.bits .f32 = 32 ∨ (Rect.block (s := S4194304) S8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x8.size a ≤ S4194304x8.size a
  hwx0_5 : ∀ i : grid0.Coords, EltTy.bits .f32 = 32 ∨ (Rect.block (s := S4194304x8) S8192x8.size (cc0_transform_5 i) (hinb0_5 i)).WholeWords (EltTy.packing .f32)

variable [Facts₀]

abbrev win0_0 : Pipeline.Window sig grid0 :=
  Pipeline.Window.ofSpec (Memref.whole main_arg0) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8192x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8192x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S8192.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S8192x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4194304 : Shape := ⟨1, ![4194304]⟩
abbrev S4194304x8x2 : Shape := ⟨3, ![4194304, 8, 2]⟩
abbrev S33554432 : Shape := ⟨1, ![33554432]⟩
abbrev S_ : Shape := ⟨0, ![]⟩
abbrev S4194304x8 : Shape := ⟨2, ![4194304, 8]⟩
abbrev S4194304x1 : Shape := ⟨2, ![4194304, 1]⟩
abbrev S4194304x8x1 : Shape := ⟨3, ![4194304, 8, 1]⟩
abbrev S1 : Shape := ⟨1, ![1]⟩
abbrev S4194303 : Shape := ⟨1, ![4194303]⟩
abbrev S524288x8 : Shape := ⟨2, ![524288, 8]⟩

abbrev nBuf : Space → Nat
  | .hbm => 39
  | .vmem => 0
  | .smem => 0
  | _ => 0

abbrev bufTy : (tb : Table) → Fin (tcTables nBuf tb) → BufTy
  | .hbm, ⟨0, _⟩ => ⟨S4194304, .f32⟩
  | .hbm, ⟨1, _⟩ => ⟨S4194304x8x2, .f32⟩
  | .hbm, ⟨2, _⟩ => ⟨S33554432, .f32⟩
  | .hbm, ⟨3, _⟩ => ⟨S_, .f32⟩
  | .hbm, ⟨4, _⟩ => ⟨S4194304x8, .f32⟩
  | .hbm, ⟨5, _⟩ => ⟨S4194304x1, .f32⟩
  | .hbm, ⟨6, _⟩ => ⟨S4194304x8x1, .f32⟩
  | .hbm, ⟨7, _⟩ => ⟨S4194304x8, .f32⟩
  | .hbm, ⟨8, _⟩ => ⟨S4194304x8, .f32⟩
  | .hbm, ⟨9, _⟩ => ⟨S4194304x8, .f32⟩
  | .hbm, ⟨10, _⟩ => ⟨S_, .f32⟩
  | .hbm, ⟨11, _⟩ => ⟨S4194304x8, .f32⟩
  | .hbm, ⟨12, _⟩ => ⟨S4194304x8, .f32⟩
  | .hbm, ⟨13, _⟩ => ⟨S4194304x8, .f32⟩
  | .hbm, ⟨14, _⟩ => ⟨S_, .f32⟩
  | .hbm, ⟨15, _⟩ => ⟨S4194304x8, .f32⟩
  | .hbm, ⟨16, _⟩ => ⟨S4194304x8, .f32⟩
  | .hbm, ⟨17, _⟩ => ⟨S_, .f32⟩
  | .hbm, ⟨18, _⟩ => ⟨S4194304x8, .f32⟩
  | .hbm, ⟨19, _⟩ => ⟨S4194304x8, .f32⟩
  | .hbm, ⟨20, _⟩ => ⟨S_, .f32⟩
  | .hbm, ⟨21, _⟩ => ⟨S4194304x8, .f32⟩
  | .hbm, ⟨22, _⟩ => ⟨S4194304x8, .f32⟩
  | .hbm, ⟨23, _⟩ => ⟨S4194304x8, .f32⟩
  | .hbm, ⟨24, _⟩ => ⟨S4194304x8, .f32⟩
  | .hbm, ⟨25, _⟩ => ⟨S4194304x8, .f32⟩
  | .hbm, ⟨26, _⟩ => ⟨S4194304x8x1, .f32⟩
  | .hbm, ⟨27, _⟩ => ⟨S4194304x8, .f32⟩
  | .hbm, ⟨28, _⟩ => ⟨S4194304x8, .f32⟩
  | .hbm, ⟨29, _⟩ => ⟨S_, .f32⟩
  | .hbm, ⟨30, _⟩ => ⟨S4194304, .f32⟩
  | .hbm, ⟨31, _⟩ => ⟨S1, .f32⟩
  | .hbm, ⟨32, _⟩ => ⟨S4194303, .f32⟩
  | .hbm, ⟨33, _⟩ => ⟨S4194304, .f32⟩
  | .hbm, ⟨34, _⟩ => ⟨S4194304, .f32⟩
  | .hbm, ⟨35, _⟩ => ⟨S4194304, .f32⟩
  | .hbm, ⟨36, _⟩ => ⟨S524288x8, .f32⟩
  | .hbm, ⟨37, _⟩ => ⟨S_, .f32⟩
  | .hbm, ⟨38, _⟩ => ⟨S_, .f32⟩
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  shapeCasts_S33554432_S4194304x8 : S33554432.ShapeCasts S4194304x8
  bcast_S4194304_S4194304x1_0 : S4194304.BroadcastsInDim S4194304x1 (![0] : Fin 1 → Fin S4194304x1.rank)
  slices_S4194304x8x2_S4194304x8x1_0_0_0 : S4194304x8x2.Slices ![0, 0, 0] S4194304x8x1
  shapeCasts_S4194304x8x1_S4194304x8 : S4194304x8x1.ShapeCasts S4194304x8
  bcast_S4194304x1_S4194304x8_0_1 : S4194304x1.BroadcastsInDim S4194304x8 (![0, 1] : Fin 2 → Fin S4194304x8.rank)
  bcast_S_S4194304x8 : S_.BroadcastsInDim S4194304x8 (![] : Fin 0 → Fin S4194304x8.rank)
  slices_S4194304x8x2_S4194304x8x1_0_0_1 : S4194304x8x2.Slices ![0, 0, 1] S4194304x8x1
  reducesTo_S4194304x8_S4194304_d1 : S4194304x8.ReducesTo [1] S4194304
  h_S_ : 0 < S_.numel
  bcast_S_S1 : S_.BroadcastsInDim S1 (![] : Fin 0 → Fin S1.rank)
  slices_S4194304_S4194303_0 : S4194304.Slices ![0] S4194303
  concatenates_S1_S4194303_S4194304_d0 : Shape.Concatenates [S1, S4194303] S4194304 0
  slices_S4194304x8_S524288x8_3670016_0 : S4194304x8.Slices ![3670016, 0] S524288x8
  reducesTo_S524288x8_S_d0_1 : S524288x8.ReducesTo [0, 1] S_

variable [Facts₀]

class Facts : Prop extends Facts₀ where

variable [Facts]
-- ==== Proof.Spec.lean ====
/-
  What the bucket network computes, as functions on the extended reals.

  A bucket `r` (there are 4194304) has a head `H r` and eight spigots; spigot `q` of bucket `r` has a height
  `Sh (r, q)`, an area `Sa (r, q)` and a coefficient `Th (r, q)`. The head above the spigot is
  `d = max 0 (H r - Sh (r, q))`, and the spigot's outflow is
      `((Th (r, q) * sqrt (c * d)) * (1/2 * (tanh d + 1))) * Sa (r, q)`
  with `c` the single-precision value written 19.6. The three constants are kept as the words that denote them:
  the same words stand on both sides of the comparison, so their values are never needed, except that the zero
  word is `0`. A bucket's outflow is the sum of its eight spigots' outflows.
-/
import Idealize.ShloMosaic.Lib.ValueIdx
import Idealize.ShloMosaic.PureOps.Ideal.Laws

noncomputable section

open scoped BigOperators

namespace Cert.Spigot

open Idealize.ShloMosaic Idealize.ShloMosaic.ValueIdx

/-- One value per bucket. -/
abbrev Buckets : Shape := ⟨1, ![4194304]⟩
/-- One value per spigot: bucket by spigot. -/
abbrev Cells : Shape := ⟨2, ![4194304, 8]⟩

/-- The outflow of one spigot from the bucket's head `h`, the spigot's height `sh`, its area `sa` and its
    coefficient `th`. -/
def flow (h sh sa th : EReal) : EReal :=
  ((th * Ideal.sqrt (Ideal.ofBits .f32 0x419CCCCD#32 * max (Ideal.ofBits .f32 0x00000000#32) (h - sh)))
      * (Ideal.ofBits .f32 0x3F000000#32
          * (Ideal.tanh (max (Ideal.ofBits .f32 0x00000000#32) (h - sh)) + Ideal.ofBits .f32 0x3F800000#32)))
    * sa

/-- Every spigot's outflow: entry `(r, q)` depends on the head of bucket `r` and on the three entries `(r, q)`. -/
def spigots (H : Buckets.Idx → EReal) (Sh Sa Th : Cells.Idx → EReal) : Cells.Idx → EReal := fun i =>
  flow (H (ix1 (⟨(i 0).val, idx2_lt0 i⟩ : Fin 4194304))) (Sh i) (Sa i) (Th i)

theorem spigots_apply (H : Buckets.Idx → EReal) (Sh Sa Th : Cells.Idx → EReal) (r : Fin 4194304) (q : Fin 8) :
    spigots H Sh Sa Th (ix2 r q) = flow (H (ix1 r)) (Sh (ix2 r q)) (Sa (ix2 r q)) (Th (ix2 r q)) := rfl

/-- Every bucket's outflow: the sum over its eight spigots. -/
def outflow (X : Cells.Idx → EReal) : Buckets.Idx → EReal := fun i =>
  ∑ k : Fin 8, X (ix2 (⟨(i 0).val, (i 0).isLt⟩ : Fin 4194304) k)

theorem outflow_apply (X : Cells.Idx → EReal) (r : Fin 4194304) : outflow X (ix1 r) = ∑ k : Fin 8, X (ix2 r k) := rfl

end Cert.Spigot

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.Body.lean ====
/-
  The kernel's body at one entry of a block.

  A block holds 8192 buckets. The body takes the block's heads `x0` (one per bucket) and three 8192 × 8 arrays
  `x1` (heights), `x2` (areas), `x3` (coefficients). It turns the heads into a column and spreads the column
  over the eight spigots, so that entry `(p, q)` sees the head of bucket `p`; every other step acts entry by
  entry. Hence entry `(p, q)` of what it stores is the spigot formula `flow` of `x0 p` and the three entries
  `(p, q)`. The second thing it stores is, for each bucket `p`, the sum of the eight entries of row `p`.
-/
import proofs.«101682_j36893769073093_2_alg».proof.Proof.Gen.KernelIdeal.Skeleton
import proofs.«101682_j36893769073093_2_alg».proof.Proof.Spec
import proofs.«101682_j36893769073093_2_alg».proof.Proof.LibKeepdims
import Idealize.ShloMosaic.Lib.Pipeline.Value
import Idealize.ShloMosaic.Lib.ValueIdx

noncomputable section

open scoped BigOperators

namespace Cert.Spigot

open Cert.KernelIdeal Cert.KernelIdeal.Gen Idealize.ShloMosaic Idealize.ShloMosaic.ValueIdx

/-- The heads made a column and spread over the spigots: entry `(p, q)` is the head of bucket `p`. -/
theorem head_spread (x0 : FVec Ideal S8192 .f32) (p : Fin 8192) (q : Fin 8) :
    broadcastTo S8192x8 (shapeCast S8192x1 x0 shapeCasts_S8192_S8192x1) broadcasts_S8192x1_S8192x8 (ix2 p q) = x0 (ix1 p) :=
  (Cert.LibKeepdims.broadcastTo_a1_ab_apply _ broadcasts_S8192x1_S8192x8 p q).trans
    (Cert.LibKeepdims.shapeCast_a_a1_apply x0 shapeCasts_S8192_S8192x1 p 0)

/-- The entrywise part of the body: from four arrays of one shape, entry `j` of the result is `flow` of their
    entries `j`. Each operation acts entry by entry and the constants are spread unchanged. -/
theorem entrywise (a b c d : FVec Ideal S8192x8 .f32) (j : S8192x8.Idx) :
    mulf (mulf (mulf d (sqrt (mulf (broadcast S8192x8 (Scalar.ofBits .f32 0x419CCCCD#32))
          (maximumf (broadcast S8192x8 (Scalar.ofBits .f32 0x00000000#32)) (subf a b)))))
        (mulf (broadcast S8192x8 (Scalar.ofBits .f32 0x3F000000#32))
          (addf (tanh (maximumf (broadcast S8192x8 (Scalar.ofBits .f32 0x00000000#32)) (subf a b)))
            (broadcast S8192x8 (Scalar.ofBits .f32 0x3F800000#32))))) c j
      = flow (a j) (b j) (c j) (d j) := rfl

/-- Entry `(p, q)` of the first stored value is the spigot formula of bucket `p`'s head and the entries `(p, q)`. -/
theorem pay1_apply (x0 : Vec Ideal S8192 .f32) (x1 x2 x3 : Vec Ideal S8192x8 .f32) (p : Fin 8192) (q : Fin 8) :
    k0_pay1 x0 x1 x2 x3 (ix2 p q) = flow (x0 (ix1 p)) (x1 (ix2 p q)) (x2 (ix2 p q)) (x3 (ix2 p q)) := by
  unfold k0_pay1
  refine (entrywise
    (broadcastTo S8192x8 (shapeCast S8192x1 x0 shapeCasts_S8192_S8192x1) broadcasts_S8192x1_S8192x8)
    (shapeCast S8192x8 x1 shapeCasts_S8192x8_S8192x8) (shapeCast S8192x8 x2 shapeCasts_S8192x8_S8192x8)
    (shapeCast S8192x8 x3 shapeCasts_S8192x8_S8192x8) (ix2 p q)).trans ?_
  rw [head_spread, shapeCast_self, shapeCast_self, shapeCast_self]

/-- Entry `p` of the second stored value is the sum of row `p` of the first. -/
theorem pay2_apply (x0 : Vec Ideal S8192 .f32) (x1 x2 x3 : Vec Ideal S8192x8 .f32) (p : Fin 8192) :
    k0_pay2 x0 x1 x2 x3 (ix1 p) = ∑ k : Fin 8, k0_pay1 x0 x1 x2 x3 (ix2 p k) := by
  unfold k0_pay2
  exact Cert.LibKeepdims.rowSum_apply (k0_pay1 x0 x1 x2 x3) reduces_S8192x8_S8192 (.inl rfl) rfl p

end Cert.Spigot

end
-- ==== Proof.Blocks.lean ====
/-
  The blocks the kernel's grid points read, and what one point computes at one entry.

  The grid has 512 points. Point `t` works on buckets `8192 t … 8192 t + 8191`: every one of the six windows is
  at block `t` along the bucket axis (and at block 0 along the spigot axis, which one block spans). So entry `p` of
  point `t`'s block of heads is the head of bucket `8192 t + p`, and entry `(p, q)` of its block of a
  bucket-by-spigot array is that array's entry `(8192 t + p, q)`. Put through the body's formula, entry `(p, q)` of
  what point `t` computes is entry `(8192 t + p, q)` of `spigots` of the four whole arrays as the grid finds them.
-/
import proofs.«101682_j36893769073093_2_alg».proof.Proof.Gen.KernelIdeal.Frame
import proofs.«101682_j36893769073093_2_alg».proof.Proof.Body

noncomputable section

open scoped BigOperators

namespace Cert.Spigot

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

theorem hz1 : (![0] : Fin 1 → Nat) = fun _ => 0 := funext fun a => by fin_cases a; rfl
theorem hz2 : (![0, 0] : Fin 2 → Nat) = fun _ => 0 := funext fun a => by fin_cases a <;> rfl

/-- Every window is at block `t` along the buckets and at block 0 along the spigots, at each of the 512 points. -/
theorem idx_facts : ∀ t : Fin cfg0.N, t.val < 512
    ∧ win0_0.index t (0 : Fin 1) = t.val
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 1) = t.val
    ∧ win0_5.index t (0 : Fin 2) = t.val ∧ win0_5.index t (1 : Fin 2) = 0 :=
  (by decide +kernel : ∀ t : Fin grid0.N, _)

/-- Entry `p` of point `t`'s block of heads is the head of bucket `8192 t + p`. -/
theorem heads_apply (c : Dev nD) (t : Fin cfg0.N) (p : Fin 8192) (k : S4194304.Idx)
    (hk : (k 0).val = t.val * 8192 + p.val) :
    (iblk m c 0 t : Vec Ideal S8192 .f32) (ix1 p) = V m c main_arg0 k := by
  obtain ⟨-, e, -⟩ := idx_facts t
  unfold iblk
  rw [View.read_apply]
  show V m c main_arg0 (((cfg0.win 0).blk t).view.emb (ix1 p)) = V m c main_arg0 k
  refine congrArg (V m c main_arg0) (funext fun a => Fin.ext ?_)
  match a with
  | ⟨0, _⟩ => show win0_0.index t (0 : Fin 1) * 8192 + 1 * p.val = (k 0).val; rw [e, hk]; omega

/-- Entry `(p, q)` of point `t`'s block of the heights is their entry `(8192 t + p, q)`. -/
theorem heights_apply (c : Dev nD) (t : Fin cfg0.N) (p : Fin 8192) (q : Fin 8) (k : S4194304x8.Idx)
    (hk0 : (k 0).val = t.val * 8192 + p.val) (hk1 : (k 1).val = q.val) :
    (iblk m c 1 t : Vec Ideal S8192x8 .f32) (ix2 p q) = V m c main_v2 k := by
  obtain ⟨-, -, e0, e1, -⟩ := idx_facts t
  unfold iblk
  rw [View.read_apply]
  show V m c main_v2 (((cfg0.win 1).blk t).view.emb (ix2 p q)) = V m c main_v2 k
  refine congrArg (V m c main_v2) (funext fun a => Fin.ext ?_)
  match a with
  | ⟨0, _⟩ => show win0_1.index t (0 : Fin 2) * 8192 + 1 * p.val = (k 0).val; rw [e0, hk0]; omega
  | ⟨1, _⟩ => show win0_1.index t (1 : Fin 2) * 8 + 1 * q.val = (k 1).val; rw [e1, hk1]; omega

/-- Entry `(p, q)` of point `t`'s block of the areas is their entry `(8192 t + p, q)`. -/
theorem areas_apply (c : Dev nD) (t : Fin cfg0.N) (p : Fin 8192) (q : Fin 8) (k : S4194304x8.Idx)
    (hk0 : (k 0).val = t.val * 8192 + p.val) (hk1 : (k 1).val = q.val) :
    (iblk m c 2 t : Vec Ideal S8192x8 .f32) (ix2 p q) = V m c main_v4 k := by
  obtain ⟨-, -, -, -, e0, e1, -⟩ := idx_facts t
  unfold iblk
  rw [View.read_apply]
  show V m c main_v4 (((cfg0.win 2).blk t).view.emb (ix2 p q)) = V m c main_v4 k
  refine congrArg (V m c main_v4) (funext fun a => Fin.ext ?_)
  match a with
  | ⟨0, _⟩ => show win0_2.index t (0 : Fin 2) * 8192 + 1 * p.val = (k 0).val; rw [e0, hk0]; omega
  | ⟨1, _⟩ => show win0_2.index t (1 : Fin 2) * 8 + 1 * q.val = (k 1).val; rw [e1, hk1]; omega

/-- Entry `(p, q)` of point `t`'s block of the coefficients is their entry `(8192 t + p, q)`. -/
theorem coeffs_apply (c : Dev nD) (t : Fin cfg0.N) (p : Fin 8192) (q : Fin 8) (k : S4194304x8.Idx)
    (hk0 : (k 0).val = t.val * 8192 + p.val) (hk1 : (k 1).val = q.val) :
    (iblk m c 3 t : Vec Ideal S8192x8 .f32) (ix2 p q) = V m c main_v0 k := by
  obtain ⟨-, -, -, -, -, -, e0, e1, -⟩ := idx_facts t
  unfold iblk
  rw [View.read_apply]
  show V m c main_v0 (((cfg0.win 3).blk t).view.emb (ix2 p q)) = V m c main_v0 k
  refine congrArg (V m c main_v0) (funext fun a => Fin.ext ?_)
  match a with
  | ⟨0, _⟩ => show win0_3.index t (0 : Fin 2) * 8192 + 1 * p.val = (k 0).val; rw [e0, hk0]; omega
  | ⟨1, _⟩ => show win0_3.index t (1 : Fin 2) * 8 + 1 * q.val = (k 1).val; rw [e1, hk1]; omega

/-- Every spigot's outflow, from the four arrays as the grid finds them: the heads, and the heights, areas and
    coefficients laid out bucket by spigot. -/
def found (c : Dev nD) : S4194304x8.Idx → EReal :=
  spigots (V m c main_arg0) (V m c main_v2) (V m c main_v4) (V m c main_v0)

theorem flow_congr {a a' b b' c c' d d' : EReal} (ha : a = a') (hb : b = b') (hc : c = c') (hd : d = d') :
    flow a b c d = flow a' b' c' d' := by subst ha hb hc hd; rfl

/-- What point `t` computes at entry `(p, q)` is entry `(8192 t + p, q)` of every spigot's outflow. -/
theorem entry (c : Dev nD) (t : Fin cfg0.N) (p : Fin 8192) (q : Fin 8) (K : S4194304x8.Idx)
    (hK0 : (K 0).val = t.val * 8192 + p.val) (hK1 : (K 1).val = q.val) :
    k0_pay1 (iblk m c 0 t) (iblk m c 1 t) (iblk m c 2 t) (iblk m c 3 t) (ix2 p q) = found m c K := by
  refine (pay1_apply (iblk m c 0 t) (iblk m c 1 t) (iblk m c 2 t) (iblk m c 3 t) p q).trans ?_
  show _ = flow (V m c main_arg0 (ix1 (⟨(K 0).val, idx2_lt0 K⟩ : Fin 4194304))) (V m c main_v2 K) (V m c main_v4 K) (V m c main_v0 K)
  exact flow_congr (heads_apply m c t p _ hK0) (heights_apply m c t p q K hK0 hK1)
    (areas_apply m c t p q K hK0 hK1) (coeffs_apply m c t p q K hK0 hK1)

end Cert.Spigot

end
-- ==== Proof.SpigotArray.lean ====
/-
  The array of spigot outflows after the grid.

  Point `t` writes its 8192 × 8 result back as rows `8192 t … 8192 t + 8191` of the output array, and by
  `entry` that result is those rows of `found`, every spigot's outflow computed from the arrays the grid found.
  A row `r` lies in the block of point `r / 8192`, so the 512 blocks cover the array, and after the grid the array
  is `found`.
-/
import proofs.«101682_j36893769073093_2_alg».proof.Proof.Blocks
import Idealize.ShloMosaic.Lib.Pipeline.Value

noncomputable section

namespace Cert.Spigot

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- What point `t` writes back to the spigot-outflow array is block `t` of `found`. -/
theorem spigots_flushed (c : Dev nD) (t : Fin cfg0.N) :
    (dats m 0 c).flushed 5 t = ((cfg0.win 5).blk t).view.read (Elt Ideal) (found m c) := by
  show (cfg0.win 5).cut (grid0.coords t) ((dats m 0 c).after 5 t) = _
  rw [after0_5]
  unfold out0_5
  rw [View.canon_unit_zero hz2]
  simp only [View.ld_unit_zero (S := S8192x8) hz2, View.ld_unit_zero (S := S8192) hz1]
  obtain ⟨-, -, -, -, -, -, -, -, -, e0, e1⟩ := idx_facts t
  funext j
  obtain ⟨p, q, rfl⟩ : ∃ (p : Fin 8192) (q : Fin 8), j = ix2 p q := ⟨j 0, j 1, eq_ix2 j⟩
  show k0_pay1 (iblk m c 0 t) (iblk m c 1 t) (iblk m c 2 t) (iblk m c 3 t) (ix2 p q)
    = found m c (((cfg0.win 5).blk t).view.emb (ix2 p q))
  refine entry m c t p q _ ?_ ?_
  · show win0_5.index t (0 : Fin 2) * 8192 + 1 * p.val = t.val * 8192 + p.val; rw [e0]; omega
  · show win0_5.index t (1 : Fin 2) * 8 + 1 * q.val = q.val; rw [e1]; omega

/-- An index of the array lies in point `t`'s block when each coordinate lies in the block's range on its axis. -/
theorem spigots_mem_blk (t : Fin cfg0.N) (i : S4194304x8.Idx) :
    i ∈ ((cfg0.win 5).blk t).view.set ↔ ∀ a : Fin 2, win0_5.index t a * S8192x8.size a ≤ (i a).val ∧ (i a).val < win0_5.index t a * S8192x8.size a + S8192x8.size a := by
  show i ∈ ((View.whole main_v5_1).slice (win0_5.rect t)).set ↔ _
  rw [View.set_slice_whole, Rect.mem_set_unit]
  exact Iff.rfl

/-- Every index lies in the block of the point that owns its row: row `r` belongs to point `r / 8192`. -/
theorem spigots_cover (i : S4194304x8.Idx) :
    ∃ t : Fin cfg0.N, (cfg0.win 5).flush t = true ∧ i ∈ ((cfg0.win 5).blk t).view.set := by
  have h0 : (i 0).val < 4194304 := (i 0).isLt
  have h1 : (i 1).val < 8 := (i 1).isLt
  have hN : grid0.N = 512 := N_0
  let t : Fin cfg0.N := ⟨(i 0).val / 8192, by show (i 0).val / 8192 < grid0.N; omega⟩
  obtain ⟨-, -, -, -, -, -, -, -, -, e0, e1⟩ := idx_facts t
  have ht : t.val = (i 0).val / 8192 := rfl
  refine ⟨t, flush0_5 t, ?_⟩
  rw [spigots_mem_blk]
  intro a
  match a with
  | ⟨0, _⟩ => show win0_5.index t (0 : Fin 2) * 8192 ≤ (i 0).val ∧ (i 0).val < win0_5.index t (0 : Fin 2) * 8192 + 8192; rw [e0, ht]; omega
  | ⟨1, _⟩ => show win0_5.index t (1 : Fin 2) * 8 ≤ (i 1).val ∧ (i 1).val < win0_5.index t (1 : Fin 2) * 8 + 8; rw [e1]; omega

/-- After the grid the spigot-outflow array is `found`. -/
theorem spigots_final (c : Dev nD) : (dats m 0 c).arrAt 5 cfg0.N = found m c :=
  (dats m 0 c).arrAt_eq_of_cover 5 (found m c) (fun t _ => spigots_flushed m c t) spigots_cover

end Cert.Spigot

end
-- ==== Proof.OutflowArray.lean ====
/-
  The array of bucket outflows after the grid.

  Besides its 8192 × 8 result a point stores, for each of its 8192 buckets, the sum of the eight entries of the
  bucket's row. Point `t` writes these back as entries `8192 t … 8192 t + 8191` of the bucket-outflow array; entry
  `p` is the sum over `q` of what the point computed at `(p, q)`, which by `entry` is the sum over `q` of
  `found` at `(8192 t + p, q)`: the outflow of bucket `8192 t + p`. The 512 blocks cover the array, so after the
  grid it is `outflow` of `found`.
-/
import proofs.«101682_j36893769073093_2_alg».proof.Proof.Blocks
import Idealize.ShloMosaic.Lib.Pipeline.Value

noncomputable section

open scoped BigOperators

namespace Cert.Spigot

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- What point `t` writes back to the bucket-outflow array is block `t` of the outflows of `found`. -/
theorem outflow_flushed (c : Dev nD) (t : Fin cfg0.N) :
    (dats m 0 c).flushed 4 t = ((cfg0.win 4).blk t).view.read (Elt Ideal) (outflow (found m c)) := by
  show (cfg0.win 4).cut (grid0.coords t) ((dats m 0 c).after 4 t) = _
  rw [after0_4]
  unfold out0_4
  rw [View.canon_unit_zero hz1]
  simp only [View.ld_unit_zero (S := S8192x8) hz2, View.ld_unit_zero (S := S8192) hz1]
  obtain ⟨-, -, -, -, -, -, -, -, e, -⟩ := idx_facts t
  funext j
  obtain ⟨p, rfl⟩ : ∃ p : Fin 8192, j = ix1 p := ⟨j 0, eq_ix1 j⟩
  show k0_pay2 (iblk m c 0 t) (iblk m c 1 t) (iblk m c 2 t) (iblk m c 3 t) (ix1 p)
    = outflow (found m c) (((cfg0.win 4).blk t).view.emb (ix1 p))
  refine (pay2_apply (iblk m c 0 t) (iblk m c 1 t) (iblk m c 2 t) (iblk m c 3 t) p).trans ?_
  have hK : ((((cfg0.win 4).blk t).view.emb (ix1 p)) 0).val = t.val * 8192 + p.val := by
    show win0_4.index t (0 : Fin 1) * 8192 + 1 * p.val = t.val * 8192 + p.val; rw [e]; omega
  unfold outflow
  exact Finset.sum_congr rfl fun k _ => entry m c t p k _ hK rfl

/-- An index of the array lies in point `t`'s block when its coordinate lies in the block's range. -/
theorem outflow_mem_blk (t : Fin cfg0.N) (i : S4194304.Idx) :
    i ∈ ((cfg0.win 4).blk t).view.set ↔ ∀ a : Fin 1, win0_4.index t a * S8192.size a ≤ (i a).val ∧ (i a).val < win0_4.index t a * S8192.size a + S8192.size a := by
  show i ∈ ((View.whole main_v5_0).slice (win0_4.rect t)).set ↔ _
  rw [View.set_slice_whole, Rect.mem_set_unit]
  exact Iff.rfl

/-- Every bucket lies in the block of point `r / 8192`. -/
theorem outflow_cover (i : S4194304.Idx) :
    ∃ t : Fin cfg0.N, (cfg0.win 4).flush t = true ∧ i ∈ ((cfg0.win 4).blk t).view.set := by
  have h0 : (i 0).val < 4194304 := (i 0).isLt
  have hN : grid0.N = 512 := N_0
  let t : Fin cfg0.N := ⟨(i 0).val / 8192, by show (i 0).val / 8192 < grid0.N; omega⟩
  obtain ⟨-, -, -, -, -, -, -, -, e, -⟩ := idx_facts t
  have ht : t.val = (i 0).val / 8192 := rfl
  refine ⟨t, flush0_4 t, ?_⟩
  rw [outflow_mem_blk]
  intro a
  match a with
  | ⟨0, _⟩ => show win0_4.index t (0 : Fin 1) * 8192 ≤ (i 0).val ∧ (i 0).val < win0_4.index t (0 : Fin 1) * 8192 + 8192; rw [e, ht]; omega

/-- After the grid the bucket-outflow array is the outflows of `found`. -/
theorem outflow_final (c : Dev nD) : (dats m 0 c).arrAt 4 cfg0.N = outflow (found m c) :=
  (dats m 0 c).arrAt_eq_of_cover 4 (outflow (found m c)) (fun t _ => outflow_flushed m c t) outflow_cover

end Cert.Spigot

end
-- ==== Proof.Host.lean ====
/-
  The array operations the two programs share, each named once.

  Before the per-spigot formula both programs prepare the same three bucket-by-spigot arrays: the heights are
  the first of the two values stored for each spigot, the areas the second, and the coefficients are the flat list
  of 33554432 numbers read eight to a bucket. After it both programs finish in the same way: the inflow of bucket
  `0` is the precipitation and the inflow of bucket `i + 1` is the outflow of bucket `i`; the new head is the old
  head plus the inflow minus the outflow; and the network's outflow is the sum of all spigot outflows of the last
  524288 buckets. These are functions of whole arrays; nothing below looks inside them, the two programs are compared
  by what they feed them.
-/
import proofs.«101682_j36893769073093_2_alg».proof.Proof.Gen.KernelIdeal

noncomputable section

namespace Cert.Spigot

open Cert.KernelIdeal Cert.KernelIdeal.Gen Idealize.ShloMosaic

variable {F : FTy → Type} [FloatOps F]

/-- Spigot heights, bucket by spigot: the first of each spigot's two values. -/
def heightsOf (S : FVec F S4194304x8x2 .f32) : FVec F S4194304x8 .f32 :=
  shapeCast S4194304x8 (extractStridedSlice S4194304x8x1 ![0, 0, 0] S slices_S4194304x8x2_S4194304x8x1_0_0_0)
    shapeCasts_S4194304x8x1_S4194304x8

/-- Spigot areas, bucket by spigot: the second of each spigot's two values. -/
def areasOf (S : FVec F S4194304x8x2 .f32) : FVec F S4194304x8 .f32 :=
  shapeCast S4194304x8 (extractStridedSlice S4194304x8x1 ![0, 0, 1] S slices_S4194304x8x2_S4194304x8x1_0_0_1)
    shapeCasts_S4194304x8x1_S4194304x8

/-- Spigot coefficients, bucket by spigot: the flat list read eight to a bucket. -/
def coeffsOf (θ : FVec F S33554432 .f32) : FVec F S4194304x8 .f32 :=
  shapeCast S4194304x8 θ shapeCasts_S33554432_S4194304x8

/-- The new heads: old head plus inflow minus outflow, the inflows being the precipitation followed by the
    outflows of all buckets but the last. -/
def headsAfter (H : FVec F S4194304 .f32) (precip : FVec F S_ .f32) (out : FVec F S4194304 .f32) : FVec F S4194304 .f32 :=
  subf (addf H (concatenate S4194304 0
      [⟨S1, broadcastInDim S1 ![] bcast_S_S1 precip⟩, ⟨S4194303, extractStridedSlice S4194303 ![0] out slices_S4194304_S4194303_0⟩]
      concatenates_S1_S4194303_S4194304_d0)) out

/-- The network's outflow: the sum of every spigot outflow of the last 524288 buckets. -/
def networkOutflow (X : FVec F S4194304x8 .f32) : FVec F S_ .f32 :=
  Host.reduceAdd (extractStridedSlice S524288x8 ![3670016, 0] X slices_S4194304x8_S524288x8_3670016_0)
    (constant S_ .f32 0x00000000#32) reducesTo_S524288x8_S_d0_1 h_S_

end Cert.Spigot

end
-- ==== Proof.KernelRun.lean ====
/-
  The kernel program's three results as functions of its four arguments.

  Before the grid the program prepares the heights, areas and coefficients from its arguments and leaves the heads
  as they are, so what the grid finds are the prepared arrays, and `found` is `spigots` of the arguments' heads and
  prepared arrays: the second result. After the grid the program reads the heads, the precipitation and the two
  arrays the grid wrote: the first result is the shared closing operation on the heads, the precipitation and the
  bucket outflows, the third the shared closing sum of the spigot outflows.
-/
import proofs.«101682_j36893769073093_2_alg».proof.Proof.SpigotArray
import proofs.«101682_j36893769073093_2_alg».proof.Proof.OutflowArray
import proofs.«101682_j36893769073093_2_alg».proof.Proof.Host
import Idealize.ShloMosaic.Lib.StableHlo.Run

noncomputable section

namespace Cert.Spigot

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## What the grid finds -/

/-- The heights the grid finds are the heights prepared from the second argument. -/
theorem found_heights (c : Dev nD) :
    (V m c main_v2 : S4194304x8.Idx → EReal) = heightsOf (F := Ideal) (m ((c : Thread nD τ).loc main_arg1)) := by
  show StableHlo.after hostOps0 (fun b => m (c, b)) (Proc.devRef .tc main_v2) = _
  after_results; rfl

/-- The areas the grid finds are the areas prepared from the second argument. -/
theorem found_areas (c : Dev nD) :
    (V m c main_v4 : S4194304x8.Idx → EReal) = areasOf (F := Ideal) (m ((c : Thread nD τ).loc main_arg1)) := by
  show StableHlo.after hostOps0 (fun b => m (c, b)) (Proc.devRef .tc main_v4) = _
  after_results; rfl

/-- The coefficients the grid finds are the third argument read eight to a bucket. -/
theorem found_coeffs (c : Dev nD) :
    (V m c main_v0 : S4194304x8.Idx → EReal) = coeffsOf (F := Ideal) (m ((c : Thread nD τ).loc main_arg2)) := by
  show StableHlo.after hostOps0 (fun b => m (c, b)) (Proc.devRef .tc main_v0) = _
  after_results; rfl

/-- Every spigot's outflow as a function of the program's arguments. -/
def resultSpigots (c : Dev nD) : S4194304x8.Idx → EReal :=
  spigots (m ((c : Thread nD τ).loc main_arg0)) (heightsOf (F := Ideal) (m ((c : Thread nD τ).loc main_arg1)))
    (areasOf (F := Ideal) (m ((c : Thread nD τ).loc main_arg1))) (coeffsOf (F := Ideal) (m ((c : Thread nD τ).loc main_arg2)))

theorem found_eq (c : Dev nD) : found m c = resultSpigots m c := by
  unfold found resultSpigots
  rw [V_main_arg0 m c, found_heights m c, found_areas m c, found_coeffs m c]

/-! ## What the lines after the grid read -/

/-- The buffers' contents when the grid is done: its arrays as the grid left them, every other buffer as before. -/
abbrev atExit (c : Dev nD) : Valuation τ sig (Elt Ideal) :=
  Pipeline.withArrays (cfgs 0).spec c (V0 m c) (fun w => (dats m 0 c).arrAt w (cfgs 0).N)

/-- The heads are an input of the grid: unchanged. -/
theorem exit_heads (c : Dev nD) : atExit m c (Proc.devRef .tc main_arg0) = m ((c : Thread nD τ).loc main_arg0) :=
  (Pipeline.withArrays_arr spec0 launch0.win.arr_inj c (V0 m c) (fun w => (dats m 0 c).arrAt w cfg0.N) 0).trans
    (((dats m 0 c).arrAt_in 0 rfl _).trans ((A_eq m c 0).trans (V_main_arg0 m c)))

/-- The precipitation is no array of the grid: unchanged. -/
theorem exit_precip (c : Dev nD) : atExit m c (Proc.devRef .tc main_arg3) = m ((c : Thread nD τ).loc main_arg3) :=
  (Pipeline.withArrays_of_ne spec0 c (V0 m c) (fun w => (dats m 0 c).arrAt w cfg0.N) main_arg3
    (by exact (by decide : ∀ w, Pipeline.arrRef spec0 w ≠ main_arg3))).trans (V_main_arg3 m c)

/-- The bucket outflows the grid wrote. -/
theorem exit_outflow (c : Dev nD) : atExit m c (Proc.devRef .tc main_v5_0) = outflow (resultSpigots m c) :=
  (Pipeline.withArrays_arr spec0 launch0.win.arr_inj c (V0 m c) (fun w => (dats m 0 c).arrAt w cfg0.N) 4).trans
    ((outflow_final m c).trans (congrArg outflow (found_eq m c)))

/-- The spigot outflows the grid wrote. -/
theorem exit_spigots (c : Dev nD) : atExit m c (Proc.devRef .tc main_v5_1) = resultSpigots m c :=
  (Pipeline.withArrays_arr spec0 launch0.win.arr_inj c (V0 m c) (fun w => (dats m 0 c).arrAt w cfg0.N) 5).trans
    ((spigots_final m c).trans (found_eq m c))

/-- The new heads: the shared closing operation on the heads, the precipitation and the bucket outflows. -/
theorem tail_heads (c : Dev nD) :
    Pipeline.afterTail₀ cfgs (dats m) 0 (V0 m) [hostOps1] c main_v10
      = headsAfter (F := Ideal) (m ((c : Thread nD τ).loc main_arg0)) (m ((c : Thread nD τ).loc main_arg3))
          (outflow (resultSpigots m c)) := by
  unfold Pipeline.afterTail₀
  show StableHlo.after hostOps1 _ (Proc.devRef .tc main_v10) = _
  after_results
  show headsAfter (F := Ideal) (atExit m c (Proc.devRef .tc main_arg0)) (atExit m c (Proc.devRef .tc main_arg3))
    (atExit m c (Proc.devRef .tc main_v5_0)) = _
  rw [exit_heads m c, exit_precip m c, exit_outflow m c]

/-- The network's outflow: the shared closing sum of the spigot outflows. -/
theorem tail_network (c : Dev nD) :
    Pipeline.afterTail₀ cfgs (dats m) 0 (V0 m) [hostOps1] c main_v12 = networkOutflow (F := Ideal) (resultSpigots m c) := by
  unfold Pipeline.afterTail₀
  show StableHlo.after hostOps1 _ (Proc.devRef .tc main_v12) = _
  after_results
  show networkOutflow (F := Ideal) (atExit m c (Proc.devRef .tc main_v5_1)) = _
  rw [exit_spigots m c]

/-! ## The run -/

/-- Every weakly fair execution of the kernel program ends with its three results at the specification's functions
    of the arguments, and the arguments unchanged. -/
theorem run : θ_run defs (onTc (τ := τ) (main (F := Ideal))) ⟨m, fun _ => 0, ρ⟩ fun r => ∀ c : Dev nD,
      r.2.mem ((c.tc : Thread nD τ).loc main_v10)
          = headsAfter (F := Ideal) (m ((c : Thread nD τ).loc main_arg0)) (m ((c : Thread nD τ).loc main_arg3))
              (outflow (resultSpigots m c))
      ∧ r.2.mem ((c.tc : Thread nD τ).loc main_v5_1) = resultSpigots m c
      ∧ r.2.mem ((c.tc : Thread nD τ).loc main_v12) = networkOutflow (F := Ideal) (resultSpigots m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v10 (Pipeline.mem_restRefs_of main_v10 (by decide) (by decide))).trans (tail_heads m c),
      ((h c).1 5).trans ((spigots_final m c).trans (found_eq m c)),
      ((h c).2 main_v12 (Pipeline.mem_restRefs_of main_v12 (by decide) (by decide))).trans (tail_network m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Spigot

end
-- ==== Proof.RefValue.lean ====
/-
  The reference program computes the same functions.

  The reference works on whole arrays. It spreads the heads over the eight spigots, so that entry `(r, q)` sees the
  head of bucket `r`, and then applies, entry by entry, the same operations in the same order as the kernel's body,
  with the same constants: its array of spigot outflows is `spigots` of the heads and of the three prepared arrays.
  Its bucket outflows are a sum along the spigot axis starting from zero, which on the extended reals is the plain
  sum of the eight entries: `outflow`. The new heads and the network's outflow are then the shared closing
  operations applied to these.
-/
import proofs.«101682_j36893769073093_2_alg».proof.Proof.Gen.ReferenceIdeal.Read
import proofs.«101682_j36893769073093_2_alg».proof.Proof.Host
import proofs.«101682_j36893769073093_2_alg».proof.Proof.Spec

noncomputable section

open scoped BigOperators

namespace Cert.Spigot

open Cert.ReferenceIdeal.Read
open Idealize.ShloMosaic Idealize.ShloMosaic.ValueIdx

/-- The reference's array of spigot outflows is `spigots` of the heads and the prepared heights, areas and
    coefficients. -/
theorem ref_spigots (x0 : FVec Ideal Cert.ReferenceIdeal.S4194304 .f32) (x1 : FVec Ideal Cert.ReferenceIdeal.S4194304x8x2 .f32)
    (x2 : FVec Ideal Cert.ReferenceIdeal.S33554432 .f32) :
    val_main_v20 (F := Ideal) x0 x1 x2 = spigots x0 (heightsOf x1) (areasOf x1) (coeffsOf x2) := by
  funext i
  obtain ⟨r, q, rfl⟩ : ∃ (r : Fin 4194304) (q : Fin 8), i = ix2 r q := ⟨i 0, i 1, eq_ix2 i⟩
  have hH : idx_main_v1 (idx_main_v4 (ix2 r q)) = ix1 r :=
    funext fun a => Fin.ext (by match a with | ⟨0, _⟩ => rfl)
  rw [spigots_apply]
  simp only [val_main_v20_apply, val_main_v17_apply, val_main_v16_apply, val_main_v15_apply, val_main_v14_apply,
    val_main_v13_apply, val_main_v12_apply, val_main_v11_apply, val_main_v10_apply, val_main_v9_apply,
    val_main_v8_apply, val_main_v7_apply, val_main_v6_apply, val_main_v5_apply, val_main_v4_apply, val_main_v1_apply,
    val_main_cst_apply, val_main_cst_0_apply, val_main_cst_1_apply, val_main_cst_2_apply, hH]
  rfl

/-- The reference's bucket outflows are the sums over the eight spigots of its spigot outflows. -/
theorem ref_outflow (x0 : FVec Ideal Cert.ReferenceIdeal.S4194304 .f32) (x1 : FVec Ideal Cert.ReferenceIdeal.S4194304x8x2 .f32)
    (x2 : FVec Ideal Cert.ReferenceIdeal.S33554432 .f32) :
    val_main_v21 (F := Ideal) x0 x1 x2 = outflow (val_main_v20 (F := Ideal) x0 x1 x2) := by
  funext i
  obtain ⟨r, rfl⟩ : ∃ r : Fin 4194304, i = ix1 r := ⟨i 0, eq_ix1 i⟩
  rw [val_main_v21_apply, outflow_apply,
    show ∀ j, val_main_cst_3 (F := Ideal) j = 0 from fun _ => Ideal.ofBits_zero_f32, zero_add]
  exact Finset.sum_congr rfl fun k _ => congrArg (val_main_v20 (F := Ideal) x0 x1 x2)
    (funext fun a => Fin.ext (by match a with | ⟨0, _⟩ => rfl | ⟨1, _⟩ => rfl))

/-- The reference's new heads are the shared closing operation on its heads, precipitation and bucket outflows. -/
theorem ref_heads (x0 : FVec Ideal Cert.ReferenceIdeal.S4194304 .f32) (x1 : FVec Ideal Cert.ReferenceIdeal.S4194304x8x2 .f32)
    (x2 : FVec Ideal Cert.ReferenceIdeal.S33554432 .f32) (x3 : FVec Ideal Cert.ReferenceIdeal.S_ .f32) :
    val_main_v26 (F := Ideal) x0 x1 x2 x3 = headsAfter x0 x3 (val_main_v21 (F := Ideal) x0 x1 x2) := rfl

/-- The reference's network outflow is the shared closing sum of its spigot outflows. -/
theorem ref_network (x0 : FVec Ideal Cert.ReferenceIdeal.S4194304 .f32) (x1 : FVec Ideal Cert.ReferenceIdeal.S4194304x8x2 .f32)
    (x2 : FVec Ideal Cert.ReferenceIdeal.S33554432 .f32) :
    val_main_v28 (F := Ideal) x0 x1 x2 = networkOutflow (F := Ideal) (val_main_v20 (F := Ideal) x0 x1 x2) := rfl

/-- The three results of the reference as the specification's functions of its four arguments. -/
theorem ref_result_heads (x0 : FVec Ideal Cert.ReferenceIdeal.S4194304 .f32) (x1 : FVec Ideal Cert.ReferenceIdeal.S4194304x8x2 .f32)
    (x2 : FVec Ideal Cert.ReferenceIdeal.S33554432 .f32) (x3 : FVec Ideal Cert.ReferenceIdeal.S_ .f32) :
    val_main_v26 (F := Ideal) x0 x1 x2 x3
      = headsAfter x0 x3 (outflow (spigots x0 (heightsOf x1) (areasOf x1) (coeffsOf x2))) := by
  rw [ref_heads, ref_outflow, ref_spigots]

theorem ref_result_network (x0 : FVec Ideal Cert.ReferenceIdeal.S4194304 .f32) (x1 : FVec Ideal Cert.ReferenceIdeal.S4194304x8x2 .f32)
    (x2 : FVec Ideal Cert.ReferenceIdeal.S33554432 .f32) :
    val_main_v28 (F := Ideal) x0 x1 x2 = networkOutflow (F := Ideal) (spigots x0 (heightsOf x1) (areasOf x1) (coeffsOf x2)) := by
  rw [ref_network, ref_spigots]

end Cert.Spigot

end
-- ==== Proof.lean ====
/-
  A network of 4194304 buckets, eight spigots each. From the heads `H`, the spigots' heights and areas `S`, their
  coefficients `θ` and the precipitation, one update computes every spigot's outflow

      `q (r, j) = ((θ (r, j) * sqrt (c * d)) * (1/2 * (tanh d + 1))) * area (r, j)`,   `d = max 0 (H r - height (r, j))`,

  every bucket's outflow `o r = Σ_j q (r, j)`, the new heads `H r + inflow r - o r` with `inflow 0` the precipitation
  and `inflow (r + 1) = o r`, and the network's outflow, the sum of `q` over the last 524288 buckets.

  The kernel program computes `q` and `o` on a grid of 512 points, 8192 buckets to a point, and the rest on whole
  arrays; the reference computes everything on whole arrays. On the extended reals the two agree for every input,
  finite or not: both apply the same operations to the same operands in the same order with the same constants, the
  square root and the hyperbolic tangent are one function whichever program applies them, and a bucket's outflow is
  in both the sum of its eight spigot outflows, started from zero. The only difference is the tiling, and each entry
  of `q` and `o` is computed by the one grid point that owns its bucket, from that bucket's data alone.

  The three frames: the kernel's two are its generated frame run, the reference's is its generated run with the
  results dropped. The idealized kernel is the kernel's own text, so nothing is owed for the idealization.
-/
import proofs.«101682_j36893769073093_2_alg».proof.Defs
import proofs.«101682_j36893769073093_2_alg».proof.Proof.Gen.Kernel
import proofs.«101682_j36893769073093_2_alg».proof.Proof.Gen.Kernel.Frame
import proofs.«101682_j36893769073093_2_alg».proof.Proof.Gen.KernelIdeal
import proofs.«101682_j36893769073093_2_alg».proof.Proof.Gen.KernelIdeal.Frame
import proofs.«101682_j36893769073093_2_alg».proof.Proof.Gen.ReferenceIdeal
import proofs.«101682_j36893769073093_2_alg».proof.Proof.Gen.ReferenceIdeal.Run
import proofs.«101682_j36893769073093_2_alg».proof.Proof.Gen.ReferenceIdeal.Read
import proofs.«101682_j36893769073093_2_alg».proof.Proof.Gen.Pre_finite_inputs
import proofs.«101682_j36893769073093_2_alg».proof.Proof.KernelRun
import proofs.«101682_j36893769073093_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the four arguments both programs end with the new heads, the spigot outflows and
    the network's outflow at the same three functions of the arguments. -/
theorem algebraic : Cert.algebraic_KernelIdeal_ReferenceIdeal := by
  intro m ρ m' ρ' _ hagree
  refine ⟨fun c => Cert.Spigot.headsAfter (F := Ideal) (m ((c : Thread Cert.KernelIdeal.nD Cert.KernelIdeal.τ).loc Cert.KernelIdeal.main_arg0))
        (m ((c : Thread Cert.KernelIdeal.nD Cert.KernelIdeal.τ).loc Cert.KernelIdeal.main_arg3)) (Cert.Spigot.outflow (Cert.Spigot.resultSpigots m c)),
    fun c => Cert.Spigot.resultSpigots m c,
    fun c => Cert.Spigot.networkOutflow (F := Ideal) (Cert.Spigot.resultSpigots m c),
    Cert.Spigot.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [(hagree c).1, (hagree c).2.1, (hagree c).2.2.1, (hagree c).2.2.2]
    unfold Cert.Spigot.resultSpigots
    exact (Cert.ReferenceIdeal.Read.val_main_v26_eq _ _ _ _).trans (Cert.Spigot.ref_result_heads _ _ _ _)
  · rw [(hagree c).1, (hagree c).2.1, (hagree c).2.2.1]
    unfold Cert.Spigot.resultSpigots
    exact (Cert.ReferenceIdeal.Read.val_main_v20_eq _ _ _).trans (Cert.Spigot.ref_spigots _ _ _)
  · rw [(hagree c).1, (hagree c).2.1, (hagree c).2.2.1]
    unfold Cert.Spigot.resultSpigots
    exact (Cert.ReferenceIdeal.Read.val_main_v28_eq _ _ _).trans (Cert.Spigot.ref_result_network _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
